-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : IVec S8192x8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S8192x8192 : Shape := ⟨2, ![8192, 8192]⟩
abbrev S64x8192 : Shape := ⟨2, ![64, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x64 : Shape := ⟨2, ![128, 64]⟩
abbrev S128x8192 : Shape := ⟨2, ![128, 8192]⟩
abbrev S128x1 : Shape := ⟨2, ![128, 1]⟩
abbrev S128 : Shape := ⟨1, ![128]⟩

abbrev nBuf : Space → Nat
  | .hbm => 48
  | .vmem => 18
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .i32⟩
  | .hbm, ⟨3, _⟩ => ⟨S8192x64, .bf16⟩
  | .hbm, ⟨4, _⟩ => ⟨S64x8192, .bf16⟩
  | .hbm, ⟨5, _⟩ => ⟨S8192x64, .bf16⟩
  | .hbm, ⟨6, _⟩ => ⟨S64x8192, .bf16⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S1x8192, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S1x8192, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S64x8192, .bf16⟩
  | .local _ .vmem, ⟨3, _⟩ => ⟨S128x64, .f32⟩
  | .local _ .vmem, ⟨4, _⟩ => ⟨S128x64, .f32⟩
  | .local _ .vmem, ⟨5, _⟩ => ⟨S64x8192, .bf16⟩
  | .local _ .vmem, ⟨6, _⟩ => ⟨S128x8192, .i32⟩
  | .local _ .vmem, ⟨7, _⟩ => ⟨S128x8192, .i32⟩
  | .local _ .vmem, ⟨8, _⟩ => ⟨S1x8192, .f32⟩
  | .local _ .vmem, ⟨9, _⟩ => ⟨S1x8192, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  transposes_S8192x64_S64x8192_1_0 : S8192x64.Transposes [1, 0] S64x8192
  reducesTo_S8192x64_S8192_d1 : S8192x64.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S128x64_S128x64_0_0 : ∀ a, (![0, 0] : Fin 2 → Nat) a + S128x64.size a ≤ S128x64.size a
  h_S128x64 : 0 < S128x64.numel
  inb_S128x8192_S128x8192_0_0 : ∀ a, (![0, 0] : Fin 2 → Nat) a + S128x8192.size a ≤ S128x8192.size a
  h_S128x8192 : 0 < S128x8192.numel
  reduces_S128x64_S128 : S128x64.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  broadcasts_S128x1_S128x8192 : S128x1.Broadcasts S128x8192
  broadcasts_S1x8192_S128x8192 : S1x8192.Broadcasts S128x8192
  reduces_S128x8192_S128 : S128x8192.Reduces [1] S128
  inb_S128x1_S128x1_0_0 : ∀ a, (![0, 0] : Fin 2 → Nat) a + S128x1.size a ≤ S128x1.size a
  h_S128x1 : 0 < S128x1.numel
  bcast_S_S8192x1 : S_.BroadcastsInDim S8192x1 (![] : Fin 0 → Fin S8192x1.rank)
  reducesTo_S8192x1_S_d0_1 : S8192x1.ReducesTo [0, 1] S_
  dot_S128x64_S64x8192_S128x8192_1_0_0_1_n_n_wf : DotDims.WF S128x64 S64x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .bf16 = 32 ∨ (Rect.block (s := S64x8192) S64x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S8192x64.size a
  hwx0_2 : ∀ i : grid0.Coords, EltTy.bits .f32 = 32 ∨ (Rect.block (s := S8192x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S64x8192.size a
  hwx0_3 : ∀ i : grid0.Coords, EltTy.bits .bf16 = 32 ∨ (Rect.block (s := S64x8192) S64x8192.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .i32 = 32 ∨ (Rect.block (s := S8192x8192) S128x8192.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S8192x1.size a
  hwx0_7 : ∀ i : grid0.Coords, EltTy.bits .f32 = 32 ∨ (Rect.block (s := S8192x1) S128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S8192x1.size a
  hwx0_8 : ∀ i : grid0.Coords, EltTy.bits .f32 = 32 ∨ (Rect.block (s := S8192x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S8192x1.size a
  hwx0_9 : ∀ i : grid0.Coords, EltTy.bits .f32 = 32 ∨ (Rect.block (s := S8192x1) S128x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S8192x1.size a
  hwx0_10 : ∀ i : grid0.Coords, EltTy.bits .f32 = 32 ∨ (Rect.block (s := S8192x1) S128x1.size (cc0_transform_10 i) (hinb0_10 i)).WholeWords (EltTy.packing .f32)

variable [Facts₀]

def dot_S128x64_S64x8192_S128x8192_1_0_0_1_n_n : DotDims S128x64 S64x8192 S128x8192 where
  lhsContracting := [1]
  rhsContracting := [0]
  lhsNonContracting := [0]
  rhsNonContracting := [1]
  lhsBatch := []
  rhsBatch := []
  wf := dot_S128x64_S64x8192_S128x8192_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S128x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_2) S128x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_3) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S1x8192 : Shape := ⟨2, ![1, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .i32⟩
  | .hbm, ⟨3, _⟩ => ⟨S8192x8192, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S64x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x64_S64x8192_1_0 : S8192x64.Transposes [1, 0] S64x8192
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  bcast_S_S8192x1 : S_.BroadcastsInDim S8192x1 (![] : Fin 0 → Fin S8192x1.rank)
  reducesTo_S8192_S_d0 : S8192.ReducesTo [0] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Loss.lean ====
/-
  The contrastive loss both programs compute, as one function of the two embedding arrays and the integer mask,
  over the extended reals.

  For embeddings `a, b : [8192, 64]` the similarity of row `r` of `a` with row `c` of `b` is
  `sim a b r c = exp ((⟨a_r, b_c⟩ / (‖a_r‖ · ‖b_c‖)) / τ)`: the inner product of the two rows over the product of their
  Euclidean norms, divided by the temperature, exponentiated. A direction's row value is the mask-weighted sum of the
  row's similarities over the row's plain sum plus ε (`ratio`), a direction's term is `½ · (−(Σ_r log (ratio r)) / 8192)`,
  and the loss is the sum of the two directions' terms: rows of `a` against all rows of `b`, and rows of `b` against all
  rows of `a`, both weighted by the same mask row.

  `refLoss` is the same loss as the reference spells it: it normalises every similarity by the row's sum BEFORE weighting
  and summing (`Σ_c (s r c / d_r) · w r c` instead of `(Σ_c s r c · w r c) / d_r`), and it reads the second direction off
  the transposed similarity matrix of the first.
-/
import Idealize.ShloMosaic.PureOps.Ideal.Laws
import Idealize.ShloMosaic.Lib.ValueIdx

noncomputable section

namespace Cert.Loss

open Idealize.ShloMosaic Idealize.ShloMosaic.ValueIdx

/-- An embedding array: 8192 rows of 64 extended reals. -/
abbrev Emb : Type := (⟨2, ![8192, 64]⟩ : Shape).Idx → EReal
/-- The mask: 8192 × 8192 signed 32-bit integers. -/
abbrev Mask : Type := (⟨2, ![8192, 8192]⟩ : Shape).Idx → BitVec 32

/-- The temperature 0.8, the ε of the normaliser, the row count 8192.0 and the weight ½, each as the extended real its
    f32 pattern denotes (the same patterns on both sides: none is ever evaluated except ε, which must be positive). -/
abbrev tau : EReal := Ideal.ofBits .f32 0x3F4CCCCD#32
abbrev eps : EReal := Ideal.ofBits .f32 0x322BCC77#32
abbrev cnt : EReal := Ideal.ofBits .f32 0x46000000#32
abbrev half : EReal := Ideal.ofBits .f32 0x3F000000#32

/-- The Euclidean norm of row `r`. -/
def norm (z : Emb) (r : Fin 8192) : EReal := Ideal.sqrt (∑ k : Fin 64, z (ix2 r k) * z (ix2 r k))

/-- The similarity of row `r` of `a` with row `c` of `b`. -/
def sim (a b : Emb) (r c : Fin 8192) : EReal :=
  Ideal.exp (Ideal.div (Ideal.div (∑ k : Fin 64, a (ix2 r k) * b (ix2 c k)) (norm a r * norm b c)) tau)

/-- The mask entry `(r, c)` as a real weight. -/
def wt (p : Mask) (r c : Fin 8192) : EReal := (((p (ix2 r c)).toInt : ℝ) : EReal)

/-- A row's mask-weighted sum of similarities over its plain sum plus ε. -/
def ratio (s : Fin 8192 → Fin 8192 → EReal) (p : Mask) (r : Fin 8192) : EReal :=
  Ideal.div (∑ c : Fin 8192, s r c * wt p r c) ((∑ c : Fin 8192, s r c) + eps)

/-- The same row value with every similarity normalised before it is weighted. -/
def ratioPre (s : Fin 8192 → Fin 8192 → EReal) (p : Mask) (r : Fin 8192) : EReal :=
  ∑ c : Fin 8192, Ideal.div (s r c) ((∑ c' : Fin 8192, s r c') + eps) * wt p r c

/-- One direction's term: half of minus the mean of the rows' logarithms. -/
def term (g : Fin 8192 → EReal) : EReal := half * -(Ideal.div (∑ r : Fin 8192, Ideal.log (g r)) cnt)

/-- The loss: rows of `a` against `b`, plus rows of `b` against `a`. -/
def loss (a b : Emb) (p : Mask) : EReal := term (ratio (sim a b) p) + term (ratio (sim b a) p)

/-- The loss as the reference spells it: normalised before weighting, the second direction through the transposed
    similarity matrix of the first. -/
def refLoss (a b : Emb) (p : Mask) : EReal :=
  term (ratioPre (sim a b) p) + term (ratioPre (fun r c => sim a b c r) p)

/-- The similarity is symmetric under exchanging the two arrays together with the two rows: products commute, in the
    inner product and between the two norms. -/
theorem sim_comm (a b : Emb) (r c : Fin 8192) : sim a b c r = sim b a r c := by
  have h : (∑ k : Fin 64, a (ix2 c k) * b (ix2 r k)) = ∑ k : Fin 64, b (ix2 r k) * a (ix2 c k) :=
    Finset.sum_congr rfl fun k _ => mul_comm _ _
  unfold sim
  rw [h, mul_comm (norm a c) (norm b r)]

end Cert.Loss

end
-- ==== Proof.NormalizedSum.lean ====
import Idealize.ShloMosaic.PureOps.Ideal.Laws

noncomputable section

namespace Cert.NormalizedSum

open Idealize.ShloMosaic

/-- The exponential of an extended real is never negative: it is `0` at `⊥`, `⊤` at `⊤`,
    and a positive real in between. -/
theorem exp_nonneg (x : EReal) : 0 ≤ Ideal.exp x := by
  induction x using EReal.rec with
  | bot => rw [Ideal.exp_bot]
  | coe r =>
    rw [Ideal.exp_coe]
    exact_mod_cast (Real.exp_pos r).le
  | top => rw [Ideal.exp_top]; exact le_top

/-- The coercion of a finite real sum is the sum of the coercions. -/
private theorem coe_sum {ι : Type} (s : Finset ι) (r : ι → ℝ) :
    ((∑ c ∈ s, r c : ℝ) : EReal) = ∑ c ∈ s, (r c : EReal) := by
  classical
  induction s using Finset.induction_on with
  | empty => simp
  | insert a s ha ih => rw [Finset.sum_insert ha, Finset.sum_insert ha, EReal.coe_add, ih]

/-- Dividing a weighted sum `∑ a c · p c` of nonnegative extended reals `a c` by the positive
    normaliser `d = ∑ a c + e` (`e > 0` real) is the weighted sum of the divided terms
    `∑ (a c / d) · p c`.  The normaliser is never zero, so division is multiplication by
    `d⁻¹`.  If some `a c` is `⊤` then `d = ⊤`, `d⁻¹ = 0` and both sides vanish; otherwise
    every `a c` is a real and the identity is distributivity in `ℝ`. -/
theorem div_sum_mul {ι : Type} [Fintype ι] (a : ι → EReal) (p : ι → ℝ) (e : ℝ)
    (ha : ∀ c, 0 ≤ a c) (he : 0 < e) :
    Ideal.div (∑ c, a c * (p c : EReal)) ((∑ c, a c) + (e : EReal))
      = ∑ c, Ideal.div (a c) ((∑ c, a c) + (e : EReal)) * (p c : EReal) := by
  have hS : 0 ≤ ∑ c, a c := Finset.sum_nonneg (fun c _ => ha c)
  have hd : 0 < (∑ c, a c) + (e : EReal) := by
    have he' : (0 : EReal) < (e : EReal) := by exact_mod_cast he
    have hle : (0 : EReal) + (e : EReal) ≤ (∑ c, a c) + (e : EReal) := add_le_add hS le_rfl
    rw [zero_add] at hle
    exact lt_of_lt_of_le he' hle
  have hd0 : (∑ c, a c) + (e : EReal) ≠ 0 := hd.ne'
  simp only [Ideal.div, if_neg hd0]
  by_cases hT : ∃ c, a c = ⊤
  · -- an infinite term makes the normaliser infinite, and `⊤⁻¹ = 0`
    obtain ⟨c0, hc0⟩ := hT
    have hST : ∑ c, a c = ⊤ := by
      apply top_unique
      rw [← hc0]
      exact Finset.single_le_sum (fun c _ => ha c) (Finset.mem_univ c0)
    rw [hST, EReal.top_add_coe, EReal.inv_top]
    simp
  · -- every term is a real number
    have hT' : ∀ c, a c ≠ ⊤ := fun c h => hT ⟨c, h⟩
    have hreal : ∀ c, ∃ r : ℝ, a c = (r : EReal) := by
      intro c
      have hb : a c ≠ ⊥ := ne_of_gt (lt_of_lt_of_le EReal.bot_lt_zero (ha c))
      exact ⟨(a c).toReal, (EReal.coe_toReal (hT' c) hb).symm⟩
    choose r hr using hreal
    simp only [hr, ← EReal.coe_mul, ← coe_sum, ← EReal.coe_add, ← EReal.coe_inv]
    congr 1
    rw [Finset.sum_mul]
    exact Finset.sum_congr rfl (fun c _ => by ring)

/-- The pattern `0x322BCC77` (about `1e-8`) denotes a positive real: sign `0`, exponent field
    `100`, fraction `2870391`, hence `(2^23 + 2870391) · 2^(100 - 127 - 23)`. -/
theorem eps_pos : ∃ e : ℝ, 0 < e ∧ Ideal.ofBits .f32 0x322BCC77#32 = (e : EReal) := by
  refine ⟨(11258999 : ℝ) * (2 : ℝ) ^ (-50 : Int), by positivity, ?_⟩
  simp [Ideal.ofBits, Ideal.ieee, -EReal.coe_mul]

end Cert.NormalizedSum

end
-- ==== Proof.LossLaw.lean ====
/-
  The reference's spelling of the loss is the loss: normalising each similarity before weighting and summing gives the
  same row value as normalising the weighted sum (the similarities are exponentials, hence nonnegative, the weights are
  integers, and ε is a positive real), and the transposed similarity matrix of the first direction is the similarity
  matrix of the second.
-/
import proofs.«155630_j80711025426432_2_alg».proof.Proof.Loss
import proofs.«155630_j80711025426432_2_alg».proof.Proof.NormalizedSum

noncomputable section

namespace Cert.Loss

open Idealize.ShloMosaic Idealize.ShloMosaic.ValueIdx

/-- A similarity is an exponential: never negative. -/
theorem sim_nonneg (a b : Emb) (r c : Fin 8192) : 0 ≤ sim a b r c := Cert.NormalizedSum.exp_nonneg _

/-- Normalising before or after the weighted sum gives one row value, for any nonnegative matrix. -/
theorem ratioPre_eq (s : Fin 8192 → Fin 8192 → EReal) (hs : ∀ r c, 0 ≤ s r c) (p : Mask) (r : Fin 8192) :
    ratioPre s p r = ratio s p r := by
  obtain ⟨e, he, hε⟩ := Cert.NormalizedSum.eps_pos
  have h := Cert.NormalizedSum.div_sum_mul (fun c : Fin 8192 => s r c) (fun c : Fin 8192 => ((p (ix2 r c)).toInt : ℝ)) e (hs r) he
  rw [← hε] at h
  exact h.symm

/-- The reference's spelling is the loss. -/
theorem refLoss_eq (a b : Emb) (p : Mask) : refLoss a b p = loss a b p := by
  have h1 : ratioPre (sim a b) p = ratio (sim a b) p := funext fun r => ratioPre_eq _ (sim_nonneg a b) p r
  have ht : (fun r c : Fin 8192 => sim a b c r) = sim b a := funext fun r => funext fun c => sim_comm a b r c
  have h2 : ratioPre (fun r c : Fin 8192 => sim a b c r) p = ratio (sim b a) p := by
    rw [ht]; exact funext fun r => ratioPre_eq _ (sim_nonneg b a) p r
  unfold refLoss loss
  rw [h1, h2]

end Cert.Loss

end
-- ==== Proof.RefValue.lean ====
/-
  The reference's result, read one operation at a time, is the loss as the reference spells it (`Loss.refLoss`): the
  row norms, the similarity matrix `exp ((⟨a_r, b_c⟩ / (‖a_r‖ ‖b_c‖)) / τ)`, its row sums plus ε, the rows' mask-weighted
  sums of normalised similarities, and the same through the transposed matrix; then the two means of logarithms.
-/
import proofs.«155630_j80711025426432_2_alg».proof.Proof.Gen.ReferenceIdeal.Read
import proofs.«155630_j80711025426432_2_alg».proof.Proof.Loss

noncomputable section

namespace Cert.RefLoss

open Idealize.ShloMosaic Idealize.ShloMosaic.ValueIdx Cert.ReferenceIdeal Cert.ReferenceIdeal.Read Cert.Loss

/-! ## The composed index maps, as coordinates -/

theorem i_sq0 (r : Fin 8192) (j : Fin 1) (k : Fin 64) : idx_main_call0_v1 (idx_main_call0_v2 (ix2 r j)) k = ix2 r k :=
  funext fun a => by match a with | ⟨0, _⟩ => rfl | ⟨1, _⟩ => rfl
theorem i_sq1 (r : Fin 8192) (j : Fin 1) (k : Fin 64) : idx_main_call1_v1 (idx_main_call1_v2 (ix2 r j)) k = ix2 r k :=
  funext fun a => by match a with | ⟨0, _⟩ => rfl | ⟨1, _⟩ => rfl
theorem i_lhs (r c : Fin 8192) (k : Fin 64) : lidx_main_v4 (ix2 r c) k = ix2 r k :=
  funext fun a => by match a with | ⟨0, _⟩ => rfl | ⟨1, _⟩ => rfl
theorem i_rhs (r c : Fin 8192) (k : Fin 64) : idx_main_v3 (ridx_main_v4 (ix2 r c) k) = ix2 c k :=
  funext fun a => by match a with | ⟨0, _⟩ => rfl | ⟨1, _⟩ => rfl
theorem i_rown (r c : Fin 8192) : idx_main_v6 (ix2 r c) = ix2 r (0 : Fin 1) :=
  funext fun a => by match a with | ⟨0, _⟩ => rfl | ⟨1, _⟩ => rfl
theorem i_coln (r c : Fin 8192) : idx_main_v5 (idx_main_v7 (ix2 r c)) = ix2 c (0 : Fin 1) :=
  funext fun a => by match a with | ⟨0, _⟩ => rfl | ⟨1, _⟩ => rfl
theorem i_sum14 (r : Fin 8192) (j : Fin 1) (k : Fin 8192) : idx_main_v14 (idx_main_v15 (ix2 r j)) k = ix2 r k :=
  funext fun a => by match a with | ⟨0, _⟩ => rfl | ⟨1, _⟩ => rfl
theorem i_den18 (r c : Fin 8192) : idx_main_v18 (ix2 r c) = ix2 r (0 : Fin 1) :=
  funext fun a => by match a with | ⟨0, _⟩ => rfl | ⟨1, _⟩ => rfl
theorem i_sum21 (r : Fin 8192) (k : Fin 8192) : idx_main_v21 (ix1 r) k = ix2 r k :=
  funext fun a => by match a with | ⟨0, _⟩ => rfl | ⟨1, _⟩ => rfl
theorem i_tr (r c : Fin 8192) : idx_main_v13 (ix2 r c) = ix2 c r :=
  funext fun a => by match a with | ⟨0, _⟩ => rfl | ⟨1, _⟩ => rfl
theorem i_sum26 (r : Fin 8192) (j : Fin 1) (k : Fin 8192) : idx_main_v26 (idx_main_v27 (ix2 r j)) k = ix2 r k :=
  funext fun a => by match a with | ⟨0, _⟩ => rfl | ⟨1, _⟩ => rfl
theorem i_den30 (r c : Fin 8192) : idx_main_v30 (ix2 r c) = ix2 r (0 : Fin 1) :=
  funext fun a => by match a with | ⟨0, _⟩ => rfl | ⟨1, _⟩ => rfl
theorem i_sum33 (r : Fin 8192) (k : Fin 8192) : idx_main_v33 (ix1 r) k = ix2 r k :=
  funext fun a => by match a with | ⟨0, _⟩ => rfl | ⟨1, _⟩ => rfl

/-! ## The stages -/

/-- The first array's row norm. -/
theorem norm0 (x0 : Emb) (r : Fin 8192) (j : Fin 1) : val_main_v1 (F := Ideal) x0 (ix2 r j) = norm x0 r := by
  rw [val_main_v1_apply, val_main_call0_v2_apply, val_main_call0_v1_apply]
  simp only [val_main_call0_v0_apply, val_main_call0_cst_apply, i_sq0, Ideal.hostUnary_sqrt_def, Ideal.ofBits_def,
    Ideal.ofBits_zero_f32, zero_add, Ideal.mulf_def]
  rfl

/-- The second array's row norm. -/
theorem norm1 (x1 : Emb) (r : Fin 8192) (j : Fin 1) : val_main_v2 (F := Ideal) x1 (ix2 r j) = norm x1 r := by
  rw [val_main_v2_apply, val_main_call1_v2_apply, val_main_call1_v1_apply]
  simp only [val_main_call1_v0_apply, val_main_call1_cst_apply, i_sq1, Ideal.hostUnary_sqrt_def, Ideal.ofBits_def,
    Ideal.ofBits_zero_f32, zero_add, Ideal.mulf_def]
  rfl

/-- The similarity matrix. -/
theorem sim12 (x0 x1 : Emb) (r c : Fin 8192) : val_main_v12 (F := Ideal) x0 x1 (ix2 r c) = sim x0 x1 r c := by
  rw [val_main_v12_apply, val_main_v11_apply, val_main_v10_apply, val_main_cst_apply, val_main_v9_apply, val_main_v8_apply,
    val_main_v6_apply, val_main_v7_apply, val_main_v5_apply, val_main_v4_apply, i_rown, i_coln, norm0, norm1]
  simp only [val_main_v3_apply, i_lhs, i_rhs, Ideal.hostUnary_exp_def, Ideal.hostDivf_def, Ideal.mulf_def, Ideal.ofBits_def]
  rfl

/-- The first direction's normaliser: the row sum plus ε. -/
theorem den_mp (x0 x1 : Emb) (r : Fin 8192) (j : Fin 1) :
    val_main_v17 (F := Ideal) x0 x1 (ix2 r j) = (∑ c : Fin 8192, sim x0 x1 r c) + eps := by
  rw [val_main_v17_apply, val_main_v15_apply, val_main_v14_apply, val_main_v16_apply, val_main_cst_1_apply]
  simp only [val_main_cst_0_apply, i_sum14, sim12, Ideal.addf_def, Ideal.ofBits_def, Ideal.ofBits_zero_f32, zero_add]

/-- The first direction's row value. -/
theorem row_mp (x0 x1 : Emb) (x2 : Mask) (r : Fin 8192) :
    val_main_v21 (F := Ideal) x0 x1 x2 (ix1 r) = ratioPre (sim x0 x1) x2 r := by
  rw [val_main_v21_apply]
  simp only [val_main_v20_apply, val_main_v19_apply, val_main_v18_apply, val_main_v0_apply, val_main_cst_2_apply, i_sum21,
    i_den18, sim12, den_mp, Ideal.hostDivf_def, Ideal.mulf_def, Ideal.ofBits_def, Ideal.ofBits_zero_f32, zero_add]
  rfl

/-- The transposed similarity matrix. -/
theorem sim13 (x0 x1 : Emb) (r c : Fin 8192) : val_main_v13 (F := Ideal) x0 x1 (ix2 r c) = sim x0 x1 c r := by
  rw [val_main_v13_apply, i_tr, sim12]

/-- The second direction's normaliser. -/
theorem den_sc (x0 x1 : Emb) (r : Fin 8192) (j : Fin 1) :
    val_main_v29 (F := Ideal) x0 x1 (ix2 r j) = (∑ c : Fin 8192, sim x0 x1 c r) + eps := by
  rw [val_main_v29_apply, val_main_v27_apply, val_main_v26_apply, val_main_v28_apply, val_main_cst_6_apply]
  simp only [val_main_cst_5_apply, i_sum26, sim13, Ideal.addf_def, Ideal.ofBits_def, Ideal.ofBits_zero_f32, zero_add]

/-- The second direction's row value. -/
theorem row_sc (x0 x1 : Emb) (x2 : Mask) (r : Fin 8192) :
    val_main_v33 (F := Ideal) x0 x1 x2 (ix1 r) = ratioPre (fun r c => sim x0 x1 c r) x2 r := by
  rw [val_main_v33_apply]
  simp only [val_main_v32_apply, val_main_v31_apply, val_main_v30_apply, val_main_v0_apply, val_main_cst_7_apply, i_sum33,
    i_den30, sim13, den_sc, Ideal.hostDivf_def, Ideal.mulf_def, Ideal.ofBits_def, Ideal.ofBits_zero_f32, zero_add]
  rfl

/-- A rank-1 index set is its coordinate range. -/
def idxEquiv1 : (⟨1, ![8192]⟩ : Shape).Idx ≃ Fin 8192 where
  toFun j := j 0
  invFun r := ix1 r
  left_inv j := (eq_ix1 j).symm
  right_inv _ := rfl

theorem sum_idx1 (f : (⟨1, ![8192]⟩ : Shape).Idx → EReal) : ∑ j, f j = ∑ r : Fin 8192, f (ix1 r) :=
  (Equiv.sum_comp idxEquiv1.symm f).symm

/-- The reference's result is the loss as the reference spells it. -/
theorem result (x0 x1 : Emb) (x2 : Mask) (i : (⟨0, ![]⟩ : Shape).Idx) :
    val_main_v40 (F := Ideal) x0 x1 x2 i = refLoss x0 x1 x2 := by
  rw [val_main_v40_apply, val_main_v38_apply, val_main_v39_apply, val_main_v25_apply, val_main_v37_apply, val_main_v24_apply,
    val_main_v36_apply, val_main_v23_apply, val_main_v35_apply, sum_idx1, sum_idx1]
  simp only [val_main_v22_apply, val_main_v34_apply, row_mp, row_sc, val_main_cst_3_apply, val_main_cst_8_apply,
    val_main_cst_4_apply, val_main_cst_9_apply, val_main_cst_10_apply, val_main_cst_11_apply, Ideal.hostUnary_log_def,
    Ideal.hostDivf_def, Ideal.hostNegf_def, Ideal.negf_def, Ideal.mulf_def, Ideal.addf_def, Ideal.ofBits_def,
    Ideal.ofBits_zero_f32, zero_add]
  rfl

end Cert.RefLoss

end
-- ==== Proof.Layout.lean ====
/-
  Small layout operations read at an index built from coordinates: a vector made a column ([a] → [a, 1]), a column made
  a row ([a, 1] → [1, a]), a column broadcast along the rows ([a, 1] → [a, b]), and a sum over the second axis of a
  matrix read at a row as the sum over that row's entries.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Layout

open Idealize.ShloMosaic Idealize.ShloMosaic.ValueIdx

variable {α : Type}

/-- A vector cast to a column reads, at `(p, 0)`, the vector at `p`: the two row-major positions agree. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) := by
  refine shapeCast_apply x h (ix2 p q) (ix1 p) ?_
  rw [Shape.rowMajor_val_one, Shape.rowMajor_val_two]
  show p.val = p.val * 1 + q.val
  have := q.isLt; omega

/-- A column cast to a row reads, at `(0, c)`, the column at `(c, 0)`. -/
theorem shapeCast_a1_1a_apply {a : ℕ} (x : (⟨2, ![a, 1]⟩ : Shape).Idx → α) (h : (⟨2, ![a, 1]⟩ : Shape).ShapeCasts ⟨2, ![1, a]⟩)
    (q : Fin 1) (c : Fin a) : shapeCast ⟨2, ![1, a]⟩ x h (ix2 q c) = x (ix2 c (0 : Fin 1)) := by
  refine shapeCast_apply x h (ix2 q c) (ix2 c (0 : Fin 1)) ?_
  rw [Shape.rowMajor_val_two, Shape.rowMajor_val_two]
  show c.val * 1 + 0 = q.val * a + c.val
  have hq : q.val = 0 := by have := q.isLt; omega
  rw [hq]; omega

/-- A column broadcast along the rows reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the second axis of a matrix of extended reals, read at row `p`, is the sum of that row's entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun ax => Fin.ext (by match ax with | ⟨0, _⟩ => rfl | ⟨1, _⟩ => rfl)))

end Cert.Layout

end
-- ==== Proof.EntryArrays.lean ====
/-
  What the kernel's region finds in the four arrays the host computes before it, read at an index, as functions of the
  two argument arrays: the two transposed copies (the change of float format is the identity on extended reals) and the
  two rows of Euclidean row norms.
-/
import proofs.«155630_j80711025426432_2_alg».proof.Proof.Gen.KernelIdeal.Frame
import proofs.«155630_j80711025426432_2_alg».proof.Proof.RefValue
import proofs.«155630_j80711025426432_2_alg».proof.Proof.Layout
import Idealize.ShloMosaic.Lib.StableHlo.Run

noncomputable section

namespace Cert.KernelLoss

open Idealize.ShloMosaic Idealize.ShloMosaic.TcCoe Idealize.SL.Sem Idealize.ShloMosaic.ValueIdx
open Cert.KernelIdeal Cert.KernelIdeal.Gen Cert.Loss

variable (m : (ℓ : Loc nD τ sig) → Buf (Elt Ideal) ℓ)

/-- The first embedding array, the second, and the mask, as launched on core `c`. -/
abbrev emb0 (c : Dev nD) : Emb := m ((c : Thread nD τ).loc main_arg0)
abbrev emb1 (c : Dev nD) : Emb := m ((c : Thread nD τ).loc main_arg1)
abbrev mask (c : Dev nD) : Mask := m ((c : Thread nD τ).loc main_arg2)

/-- The transposed copy of the second array: entry `(k, r)` is entry `(r, k)` of the array. -/
theorem entry_tr1 (c : Dev nD) (k : Fin 64) (r : Fin 8192) :
    (V m c main_v3 : S64x8192.Idx → EReal) (ix2 k r) = emb1 m c (ix2 r k) := by
  have e : (V m c main_v3 : S64x8192.Idx → EReal)
      = transpose S64x8192 [1, 0] (truncf (F := Ideal) .bf16 (emb1 m c) bitsLt_bf16_f32) transposes_S8192x64_S64x8192_1_0 := by
    dsimp only [V, V0]
    simp only [hostOps0, hostOps0_1, hostOps0_2, hostOps0_3, hostOps0_4, List.flatten_cons, List.flatten_nil, List.append_nil,
      List.cons_append, List.nil_append]
    after_results
  rw [e]
  exact transpose_ix2_apply _ _ k r

/-- The transposed copy of the first array. -/
theorem entry_tr0 (c : Dev nD) (k : Fin 64) (r : Fin 8192) :
    (V m c main_v1 : S64x8192.Idx → EReal) (ix2 k r) = emb0 m c (ix2 r k) := by
  have e : (V m c main_v1 : S64x8192.Idx → EReal)
      = transpose S64x8192 [1, 0] (truncf (F := Ideal) .bf16 (emb0 m c) bitsLt_bf16_f32) transposes_S8192x64_S64x8192_1_0 := by
    dsimp only [V, V0]
    simp only [hostOps0, hostOps0_1, hostOps0_2, hostOps0_3, hostOps0_4, List.flatten_cons, List.flatten_nil, List.append_nil,
      List.cons_append, List.nil_append]
    after_results
  rw [e]
  exact transpose_ix2_apply _ _ k r

/-- The row of the second array's row norms. -/
theorem entry_norm1 (c : Dev nD) (q : Fin 1) (r : Fin 8192) :
    (V m c main_v7 : S1x8192.Idx → EReal) (ix2 q r) = norm (emb1 m c) r := by
  have e : (V m c main_v7 : S1x8192.Idx → EReal)
      = shapeCast S1x8192 (Cert.ReferenceIdeal.Read.val_main_v2 (F := Ideal) (emb1 m c)) shapeCasts_S8192x1_S1x8192 := by
    dsimp only [V, V0]
    simp only [hostOps0, hostOps0_1, hostOps0_2, hostOps0_3, hostOps0_4, List.flatten_cons, List.flatten_nil, List.append_nil,
      List.cons_append, List.nil_append]
    after_results; rfl
  rw [e]
  exact (Cert.Layout.shapeCast_a1_1a_apply _ _ q r).trans (Cert.RefLoss.norm1 _ r 0)

/-- The row of the first array's row norms. -/
theorem entry_norm0 (c : Dev nD) (q : Fin 1) (r : Fin 8192) :
    (V m c main_v5 : S1x8192.Idx → EReal) (ix2 q r) = norm (emb0 m c) r := by
  have e : (V m c main_v5 : S1x8192.Idx → EReal)
      = shapeCast S1x8192 (Cert.ReferenceIdeal.Read.val_main_v1 (F := Ideal) (emb0 m c)) shapeCasts_S8192x1_S1x8192 := by
    dsimp only [V, V0]
    simp only [hostOps0, hostOps0_1, hostOps0_2, hostOps0_3, hostOps0_4, List.flatten_cons, List.flatten_nil, List.append_nil,
      List.cons_append, List.nil_append]
    after_results; rfl
  rw [e]
  exact (Cert.Layout.shapeCast_a1_1a_apply _ _ q r).trans (Cert.RefLoss.norm0 _ r 0)

end Cert.KernelLoss

end
-- ==== Proof.Tile.lean ====
/-
  What one grid point's body stores, read at an index of its [128, 1] output blocks, as a function of the blocks it loads.

  Both directions of the body are one computation on different blocks: from a [128, 64] tile `z` of rows, a [64, 8192]
  transposed array `zt` and a [1, 8192] row `n` of norms it forms the tile's similarities
  `tileSim z zt n p c = exp ((Σ_k z[p,k]·zt[k,c] / (√(Σ_k z[p,k]²) · n[0,c])) / τ)`, and stores the row sums and the row sums
  weighted by the mask tile converted to floats.
-/
import proofs.«155630_j80711025426432_2_alg».proof.Proof.Gen.KernelIdeal.Skeleton
import proofs.«155630_j80711025426432_2_alg».proof.Proof.Layout
import proofs.«155630_j80711025426432_2_alg».proof.Proof.Loss

noncomputable section

namespace Cert.KernelLoss

open Idealize.ShloMosaic Idealize.ShloMosaic.ValueIdx Cert.KernelIdeal Cert.KernelIdeal.Gen Cert.Loss

/-- The similarity of row `p` of the tile with column `c`. -/
def tileSim (z : S128x64.Idx → EReal) (zt : S64x8192.Idx → EReal) (n : S1x8192.Idx → EReal) (p : Fin 128) (c : Fin 8192) : EReal :=
  Ideal.exp (Ideal.div (Ideal.div (∑ k : Fin 64, z (ix2 p k) * zt (ix2 k c))
    (Ideal.sqrt (∑ k : Fin 64, z (ix2 p k) * z (ix2 p k)) * n (ix2 (0 : Fin 1) c))) tau)

/-- The mask tile's entry as a real weight. -/
def tileWt (w : S128x8192.Idx → BitVec 32) (p : Fin 128) (c : Fin 8192) : EReal := (((w (ix2 p c)).toInt : ℝ) : EReal)

/-! ## The matrix product of a tile with the transposed array, into a zero accumulator -/

theorem dot_lhs0 (i : S128x8192.Idx) (q : dot_S128x64_S64x8192_S128x8192_1_0_0_1_n_n.contr.Idx) :
    (dot_S128x64_S64x8192_S128x8192_1_0_0_1_n_n.lhsIdx i q 0).val = (i 0).val := by
  unfold DotDims.lhsIdx
  rw [dif_neg (show ¬(0 : Fin S128x64.rank) ∈ dot_S128x64_S64x8192_S128x8192_1_0_0_1_n_n.lhsBatch by decide), dif_pos (show (0 : Fin S128x64.rank) ∈ dot_S128x64_S64x8192_S128x8192_1_0_0_1_n_n.lhsNonContracting by decide)]
  rfl
theorem dot_lhs1 (i : S128x8192.Idx) (q : dot_S128x64_S64x8192_S128x8192_1_0_0_1_n_n.contr.Idx) :
    (dot_S128x64_S64x8192_S128x8192_1_0_0_1_n_n.lhsIdx i q 1).val = (q ⟨0, by decide⟩).val :=
  dot_S128x64_S64x8192_S128x8192_1_0_0_1_n_n.lhsIdx_val_of_single rfl i q
theorem dot_rhs0 (i : S128x8192.Idx) (q : dot_S128x64_S64x8192_S128x8192_1_0_0_1_n_n.contr.Idx) :
    (dot_S128x64_S64x8192_S128x8192_1_0_0_1_n_n.rhsIdx i q 0).val = (q ⟨0, by decide⟩).val :=
  dot_S128x64_S64x8192_S128x8192_1_0_0_1_n_n.rhsIdx_val_of_single rfl i q
theorem dot_rhs1 (i : S128x8192.Idx) (q : dot_S128x64_S64x8192_S128x8192_1_0_0_1_n_n.contr.Idx) :
    (dot_S128x64_S64x8192_S128x8192_1_0_0_1_n_n.rhsIdx i q 1).val = (i 1).val := by
  unfold DotDims.rhsIdx
  rw [dif_neg (show ¬(1 : Fin S64x8192.rank) ∈ dot_S128x64_S64x8192_S128x8192_1_0_0_1_n_n.rhsBatch by decide), dif_pos (show (1 : Fin S64x8192.rank) ∈ dot_S128x64_S64x8192_S128x8192_1_0_0_1_n_n.rhsNonContracting by decide)]
  rfl

/-- Entry `(p, c)` of the product is the sum over `k` of the tile at `(p, k)` times the transposed array at `(k, c)`. -/
theorem tileDot_apply (lhs : FVec Ideal S128x64 .bf16) (rhs : FVec Ideal S64x8192 .bf16) (p : Fin 128) (c : Fin 8192) :
    matmul dot_S128x64_S64x8192_S128x8192_1_0_0_1_n_n none lhs rhs (constant S128x8192 .f32 0x00000000#32) (ix2 p c)
      = ∑ k : Fin 64, lhs (ix2 p k) * rhs (ix2 k c) := by
  simp only [matmul]
  rw [Ideal.matmul_constant_zero_apply, ← Equiv.sum_comp (ValueIdx.contrEquiv1 dot_S128x64_S64x8192_S128x8192_1_0_0_1_n_n 64 rfl rfl).symm]
  refine Finset.sum_congr rfl fun k _ => ?_
  have hk := ValueIdx.contrEquiv1_symm_val dot_S128x64_S64x8192_S128x8192_1_0_0_1_n_n 64 rfl rfl k
  have el : dot_S128x64_S64x8192_S128x8192_1_0_0_1_n_n.lhsIdx (ix2 p c) ((ValueIdx.contrEquiv1 dot_S128x64_S64x8192_S128x8192_1_0_0_1_n_n 64 rfl rfl).symm k) = ix2 p k := funext fun a => Fin.ext (by
    match a with
    | ⟨0, _⟩ => exact dot_lhs0 _ _
    | ⟨1, _⟩ => exact (dot_lhs1 _ _).trans hk)
  have er : dot_S128x64_S64x8192_S128x8192_1_0_0_1_n_n.rhsIdx (ix2 p c) ((ValueIdx.contrEquiv1 dot_S128x64_S64x8192_S128x8192_1_0_0_1_n_n 64 rfl rfl).symm k) = ix2 k c := funext fun a => Fin.ext (by
    match a with
    | ⟨0, _⟩ => exact (dot_rhs0 _ _).trans hk
    | ⟨1, _⟩ => exact dot_rhs1 _ _)
  rw [el, er]

/-! ## The first direction's payloads -/

/-- The exponentiated tile of the first direction is `tileSim` of its three loaded blocks. -/
theorem pay7_apply (v0 : Vec Ideal S128x64 .f32) (v12 : Vec Ideal S1x8192 .f32) (v17 : Vec Ideal S64x8192 .bf16) (p : Fin 128) (c : Fin 8192) :
    k0_pay7 v0 v12 v17 (ix2 p c) = tileSim v0 v17 v12 p c := by
  unfold k0_pay7 tileSim
  show Ideal.exp (Ideal.div (Ideal.div (matmul (F := Ideal) _ none _ _ _ (ix2 p c))
    (broadcastTo S128x8192 _ _ (ix2 p c) * broadcastTo S128x8192 _ _ (ix2 p c))) _) = _
  rw [tileDot_apply, Cert.Layout.broadcastTo_a1_ab_apply, broadcastTo_1b_ab_apply, shapeCast_self, shapeCast_self]
  show Ideal.exp (Ideal.div (Ideal.div _ (Ideal.sqrt (shapeCast S128x1 _ _ (ix2 p (0 : Fin 1))) * _)) _) = _
  have hs : multiReduction (F := Ideal) .add [1] S128 (mulf v0 v0) 0x00000000#32 reduces_S128x64_S128 (.inl rfl) rfl (ix1 p)
      = ∑ k : Fin 64, v0 (ix2 p k) * v0 (ix2 p k) := Cert.Layout.rowSum_apply (mulf v0 v0) reduces_S128x64_S128 _ _ p
  rw [Cert.Layout.shapeCast_a_a1_apply, hs]
  rfl

/-- The stored row sums of the first direction. -/
theorem pay8_apply (v0 : Vec Ideal S128x64 .f32) (v12 : Vec Ideal S1x8192 .f32) (v17 : Vec Ideal S64x8192 .bf16) (p : Fin 128) (q : Fin 1) :
    k0_pay8 v0 v12 v17 (ix2 p q) = ∑ c : Fin 8192, tileSim v0 v17 v12 p c := by
  unfold k0_pay8
  show shapeCast S128x1 _ _ (ix2 p q) = _
  rw [Cert.Layout.shapeCast_a_a1_apply]
  refine (Cert.Layout.rowSum_apply _ _ _ _ p).trans ?_
  exact Finset.sum_congr rfl fun c _ => pay7_apply v0 v12 v17 p c

/-- The stored mask-weighted row sums of the first direction. -/
theorem pay9_apply (v0 : Vec Ideal S128x64 .f32) (v2 : Vec Ideal S128x8192 .i32) (v12 : Vec Ideal S1x8192 .f32) (v17 : Vec Ideal S64x8192 .bf16)
    (p : Fin 128) (q : Fin 1) :
    k0_pay9 v0 v2 v12 v17 (ix2 p q) = ∑ c : Fin 8192, tileSim v0 v17 v12 p c * tileWt v2 p c := by
  unfold k0_pay9
  show shapeCast S128x1 _ _ (ix2 p q) = _
  rw [Cert.Layout.shapeCast_a_a1_apply]
  refine (Cert.Layout.rowSum_apply _ _ _ _ p).trans ?_
  refine Finset.sum_congr rfl fun c _ => ?_
  show k0_pay7 v0 v12 v17 (ix2 p c) * k0_pay4 v2 (ix2 p c) = _
  rw [pay7_apply]
  rfl

/-! ## The second direction's payloads -/

/-- The exponentiated tile of the second direction: the same computation on the second tile, with its norm column,
    the other norm row and the other transposed array. -/
theorem pay1_apply (v1 : Vec Ideal S128x64 .f32) (v14 : Vec Ideal S1x8192 .f32) (v35 : Vec Ideal S64x8192 .bf16) (p : Fin 128) (c : Fin 8192) :
    k0_pay1 (k0_pay5 v1) (k0_pay6 v14) (k0_pay10 v1) v35 (ix2 p c) = tileSim v1 v35 v14 p c := by
  unfold k0_pay1 k0_pay5 k0_pay6 k0_pay10 tileSim
  show Ideal.exp (Ideal.div (Ideal.div (matmul (F := Ideal) _ none _ _ _ (ix2 p c))
    (broadcastTo S128x8192 _ _ (ix2 p c) * broadcastTo S128x8192 _ _ (ix2 p c))) _) = _
  rw [tileDot_apply, Cert.Layout.broadcastTo_a1_ab_apply, broadcastTo_1b_ab_apply, shapeCast_self, shapeCast_self]
  show Ideal.exp (Ideal.div (Ideal.div _ (Ideal.sqrt (shapeCast S128x1 _ _ (ix2 p (0 : Fin 1))) * _)) _) = _
  have hs : multiReduction (F := Ideal) .add [1] S128 (mulf v1 v1) 0x00000000#32 reduces_S128x64_S128 (.inl rfl) rfl (ix1 p)
      = ∑ k : Fin 64, v1 (ix2 p k) * v1 (ix2 p k) := Cert.Layout.rowSum_apply (mulf v1 v1) reduces_S128x64_S128 _ _ p
  rw [Cert.Layout.shapeCast_a_a1_apply, hs]
  rfl

/-- The stored row sums of the second direction. -/
theorem pay2_apply (v1 : Vec Ideal S128x64 .f32) (v14 : Vec Ideal S1x8192 .f32) (v35 : Vec Ideal S64x8192 .bf16) (p : Fin 128) (q : Fin 1) :
    k0_pay2 (k0_pay5 v1) (k0_pay6 v14) (k0_pay10 v1) v35 (ix2 p q) = ∑ c : Fin 8192, tileSim v1 v35 v14 p c := by
  unfold k0_pay2
  show shapeCast S128x1 _ _ (ix2 p q) = _
  rw [Cert.Layout.shapeCast_a_a1_apply]
  refine (Cert.Layout.rowSum_apply _ _ _ _ p).trans ?_
  exact Finset.sum_congr rfl fun c _ => pay1_apply v1 v14 v35 p c

/-- The stored mask-weighted row sums of the second direction. -/
theorem pay3_apply (v2 : Vec Ideal S128x8192 .i32) (v1 : Vec Ideal S128x64 .f32) (v14 : Vec Ideal S1x8192 .f32) (v35 : Vec Ideal S64x8192 .bf16)
    (p : Fin 128) (q : Fin 1) :
    k0_pay3 (k0_pay4 v2) (k0_pay5 v1) (k0_pay6 v14) (k0_pay10 v1) v35 (ix2 p q) = ∑ c : Fin 8192, tileSim v1 v35 v14 p c * tileWt v2 p c := by
  unfold k0_pay3
  show shapeCast S128x1 _ _ (ix2 p q) = _
  rw [Cert.Layout.shapeCast_a_a1_apply]
  refine (Cert.Layout.rowSum_apply _ _ _ _ p).trans ?_
  refine Finset.sum_congr rfl fun c _ => ?_
  show k0_pay1 (k0_pay5 v1) (k0_pay6 v14) (k0_pay10 v1) v35 (ix2 p c) * k0_pay4 v2 (ix2 p c) = _
  rw [pay1_apply]
  rfl

end Cert.KernelLoss

end
-- ==== Proof.Blocks.lean ====
/-
  One grid point's blocks as rows of the arrays. Point `t` of the 64 stages rows `128 t … 128 t + 127` of the two
  embedding arrays and of the mask, and all of the two transposed copies and of the two norm rows; so the tile's
  similarities are the similarity matrix's rows `128 t + p` (`tileSim_fst`, `tileSim_snd`), and what the body leaves in
  its four [128, 1] output blocks are those rows' sums and mask-weighted sums (`out7_at` … `out10_at`).
-/
import proofs.«155630_j80711025426432_2_alg».proof.Proof.EntryArrays
import proofs.«155630_j80711025426432_2_alg».proof.Proof.Tile
import Idealize.ShloMosaic.Lib.Pipeline.Value

noncomputable section

namespace Cert.KernelLoss

open Idealize.ShloMosaic Idealize.ShloMosaic.TcCoe Idealize.SL.Sem Idealize.ShloMosaic.ValueIdx
open Cert.KernelIdeal Cert.KernelIdeal.Gen Cert.Loss

variable (m : (ℓ : Loc nD τ sig) → Buf (Elt Ideal) ℓ)

/-- The array row that row `p` of point `t`'s tiles is. -/
def rowOf (t : Fin cfg0.N) (p : Fin 128) : Fin 8192 :=
  ⟨128 * t.val + p.val, by have := t.isLt; have h : cfg0.N = 64 := N_0; have := p.isLt; omega⟩

theorem rowOf_val (t : Fin cfg0.N) (p : Fin 128) : (rowOf t p).val = 128 * t.val + p.val := rfl

/-- The input windows' block indices over the grid: the three row-tiled windows move with the point, the four whole
    windows stay at the origin. -/
theorem idx_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks, read at an index -/

theorem blk0_apply (c : Dev nD) (t : Fin cfg0.N) (p : Fin 128) (k : Fin 64) :
    (iblk m c 0 t : S128x64.Idx → EReal) (ix2 p k) = emb0 m c (ix2 (rowOf t p) k) := by
  unfold iblk
  rw [View.read_apply]
  show V m c main_arg0 _ = _
  rw [V_main_arg0]
  refine congrArg (emb0 m c) (funext fun a => Fin.ext ?_)
  match a with
  | ⟨0, _⟩ => show win0_0.index t (0 : Fin 2) * 128 + 1 * p.val = 128 * t.val + p.val; rw [(idx_in t).1]; omega
  | ⟨1, _⟩ => show win0_0.index t (1 : Fin 2) * 64 + 1 * k.val = k.val; rw [(idx_in t).2.1]; omega

theorem blk2_apply (c : Dev nD) (t : Fin cfg0.N) (p : Fin 128) (k : Fin 64) :
    (iblk m c 2 t : S128x64.Idx → EReal) (ix2 p k) = emb1 m c (ix2 (rowOf t p) k) := by
  unfold iblk
  rw [View.read_apply]
  show V m c main_arg1 _ = _
  rw [V_main_arg1]
  refine congrArg (emb1 m c) (funext fun a => Fin.ext ?_)
  match a with
  | ⟨0, _⟩ => show win0_2.index t (0 : Fin 2) * 128 + 1 * p.val = 128 * t.val + p.val; rw [(idx_in t).2.2.2.2.1]; omega
  | ⟨1, _⟩ => show win0_2.index t (1 : Fin 2) * 64 + 1 * k.val = k.val; rw [(idx_in t).2.2.2.2.2.1]; omega

theorem blk4_apply (c : Dev nD) (t : Fin cfg0.N) (p : Fin 128) (r : Fin 8192) :
    (iblk m c 4 t : S128x8192.Idx → BitVec 32) (ix2 p r) = mask m c (ix2 (rowOf t p) r) := by
  unfold iblk
  rw [View.read_apply]
  show V m c main_arg2 _ = _
  rw [V_main_arg2]
  refine congrArg (mask m c) (funext fun a => Fin.ext ?_)
  match a with
  | ⟨0, _⟩ => show win0_4.index t (0 : Fin 2) * 128 + 1 * p.val = 128 * t.val + p.val; rw [(idx_in t).2.2.2.2.2.2.2.2.1]; omega
  | ⟨1, _⟩ => show win0_4.index t (1 : Fin 2) * 8192 + 1 * r.val = r.val; rw [(idx_in t).2.2.2.2.2.2.2.2.2.1]; omega

theorem blk1_apply (c : Dev nD) (t : Fin cfg0.N) (k : Fin 64) (r : Fin 8192) :
    (iblk m c 1 t : S64x8192.Idx → EReal) (ix2 k r) = emb1 m c (ix2 r k) := by
  unfold iblk
  rw [View.read_apply]
  show (V m c main_v3 : S64x8192.Idx → EReal) _ = _
  refine Eq.trans (congrArg (V m c main_v3 : S64x8192.Idx → EReal) (funext fun a => Fin.ext ?_)) (entry_tr1 m c k r)
  match a with
  | ⟨0, _⟩ => show win0_1.index t (0 : Fin 2) * 64 + 1 * k.val = k.val; rw [(idx_in t).2.2.1]; omega
  | ⟨1, _⟩ => show win0_1.index t (1 : Fin 2) * 8192 + 1 * r.val = r.val; rw [(idx_in t).2.2.2.1]; omega

theorem blk3_apply (c : Dev nD) (t : Fin cfg0.N) (k : Fin 64) (r : Fin 8192) :
    (iblk m c 3 t : S64x8192.Idx → EReal) (ix2 k r) = emb0 m c (ix2 r k) := by
  unfold iblk
  rw [View.read_apply]
  show (V m c main_v1 : S64x8192.Idx → EReal) _ = _
  refine Eq.trans (congrArg (V m c main_v1 : S64x8192.Idx → EReal) (funext fun a => Fin.ext ?_)) (entry_tr0 m c k r)
  match a with
  | ⟨0, _⟩ => show win0_3.index t (0 : Fin 2) * 64 + 1 * k.val = k.val; rw [(idx_in t).2.2.2.2.2.2.1]; omega
  | ⟨1, _⟩ => show win0_3.index t (1 : Fin 2) * 8192 + 1 * r.val = r.val; rw [(idx_in t).2.2.2.2.2.2.2.1]; omega

theorem blk5_apply (c : Dev nD) (t : Fin cfg0.N) (q : Fin 1) (r : Fin 8192) :
    (iblk m c 5 t : S1x8192.Idx → EReal) (ix2 q r) = norm (emb1 m c) r := by
  unfold iblk
  rw [View.read_apply]
  show (V m c main_v7 : S1x8192.Idx → EReal) _ = _
  refine Eq.trans (congrArg (V m c main_v7 : S1x8192.Idx → EReal) (funext fun a => Fin.ext ?_)) (entry_norm1 m c q r)
  match a with
  | ⟨0, _⟩ => show win0_5.index t (0 : Fin 2) * 1 + 1 * q.val = q.val; rw [(idx_in t).2.2.2.2.2.2.2.2.2.2.1]; omega
  | ⟨1, _⟩ => show win0_5.index t (1 : Fin 2) * 8192 + 1 * r.val = r.val; rw [(idx_in t).2.2.2.2.2.2.2.2.2.2.2.1]; omega

theorem blk6_apply (c : Dev nD) (t : Fin cfg0.N) (q : Fin 1) (r : Fin 8192) :
    (iblk m c 6 t : S1x8192.Idx → EReal) (ix2 q r) = norm (emb0 m c) r := by
  unfold iblk
  rw [View.read_apply]
  show (V m c main_v5 : S1x8192.Idx → EReal) _ = _
  refine Eq.trans (congrArg (V m c main_v5 : S1x8192.Idx → EReal) (funext fun a => Fin.ext ?_)) (entry_norm0 m c q r)
  match a with
  | ⟨0, _⟩ => show win0_6.index t (0 : Fin 2) * 1 + 1 * q.val = q.val; rw [(idx_in t).2.2.2.2.2.2.2.2.2.2.2.2.1]; omega
  | ⟨1, _⟩ => show win0_6.index t (1 : Fin 2) * 8192 + 1 * r.val = r.val; rw [(idx_in t).2.2.2.2.2.2.2.2.2.2.2.2.2]; omega

/-! ## The tile's similarities are rows of the similarity matrix -/

/-- First direction: the first array's tile against the second array's transposed copy and norm row. -/
theorem tileSim_fst (c : Dev nD) (t : Fin cfg0.N) (p : Fin 128) (cc : Fin 8192) :
    tileSim (iblk m c 0 t) (iblk m c 1 t) (iblk m c 5 t) p cc = sim (emb0 m c) (emb1 m c) (rowOf t p) cc := by
  unfold tileSim sim
  simp only [blk0_apply m c t, blk1_apply m c t, blk5_apply m c t]
  rfl

/-- Second direction: the second array's tile against the first array's transposed copy and norm row. -/
theorem tileSim_snd (c : Dev nD) (t : Fin cfg0.N) (p : Fin 128) (cc : Fin 8192) :
    tileSim (iblk m c 2 t) (iblk m c 3 t) (iblk m c 6 t) p cc = sim (emb1 m c) (emb0 m c) (rowOf t p) cc := by
  unfold tileSim sim
  simp only [blk2_apply m c t, blk3_apply m c t, blk6_apply m c t]
  rfl

/-- The mask tile's weights are the mask rows' weights. -/
theorem tileWt_eq (c : Dev nD) (t : Fin cfg0.N) (p : Fin 128) (cc : Fin 8192) :
    tileWt (iblk m c 4 t) p cc = wt (mask m c) (rowOf t p) cc := by
  unfold tileWt wt
  rw [blk4_apply m c t]

/-! ## What the body leaves in the four output blocks -/

theorem hz : (![0, 0] : Fin 2 → Nat) = fun _ => 0 := funext fun a => by fin_cases a <;> rfl

/-- The first direction's mask-weighted row sums. -/
theorem out7_apply (x0 : Vec Ideal S128x64 .f32) (x1 : Vec Ideal S64x8192 .bf16) (x2 : Vec Ideal S128x64 .f32) (x3 : Vec Ideal S64x8192 .bf16)
    (x4 : Vec Ideal S128x8192 .i32) (x5 : Vec Ideal S1x8192 .f32) (x6 : Vec Ideal S1x8192 .f32) (y : S128x1.Idx) :
    out0_7 x0 x1 x2 x3 x4 x5 x6 y = ∑ cc : Fin 8192, tileSim x0 x1 x5 ⟨(y 0).val, idx2_lt0 y⟩ cc * tileWt x4 ⟨(y 0).val, idx2_lt0 y⟩ cc := by
  obtain ⟨p, q, rfl⟩ : ∃ (p : Fin 128) (q : Fin 1), y = ix2 p q := ⟨y 0, y 1, eq_ix2 y⟩
  unfold out0_7
  rw [View.canon_unit_zero hz]
  simp only [View.ld_unit_zero (S := S128x64) hz, View.ld_unit_zero (S := S1x8192) hz, View.ld_unit_zero (S := S64x8192) hz,
    View.ld_unit_zero (S := S128x8192) hz]
  exact pay9_apply x0 x4 x5 x1 p q

/-- The first direction's row sums. -/
theorem out8_apply (x0 : Vec Ideal S128x64 .f32) (x1 : Vec Ideal S64x8192 .bf16) (x2 : Vec Ideal S128x64 .f32) (x3 : Vec Ideal S64x8192 .bf16)
    (x4 : Vec Ideal S128x8192 .i32) (x5 : Vec Ideal S1x8192 .f32) (x6 : Vec Ideal S1x8192 .f32) (y : S128x1.Idx) :
    out0_8 x0 x1 x2 x3 x4 x5 x6 y = ∑ cc : Fin 8192, tileSim x0 x1 x5 ⟨(y 0).val, idx2_lt0 y⟩ cc := by
  obtain ⟨p, q, rfl⟩ : ∃ (p : Fin 128) (q : Fin 1), y = ix2 p q := ⟨y 0, y 1, eq_ix2 y⟩
  unfold out0_8
  rw [View.canon_unit_zero hz]
  simp only [View.ld_unit_zero (S := S128x64) hz, View.ld_unit_zero (S := S1x8192) hz, View.ld_unit_zero (S := S64x8192) hz]
  exact pay8_apply x0 x5 x1 p q

/-- The second direction's mask-weighted row sums. -/
theorem out9_apply (x0 : Vec Ideal S128x64 .f32) (x1 : Vec Ideal S64x8192 .bf16) (x2 : Vec Ideal S128x64 .f32) (x3 : Vec Ideal S64x8192 .bf16)
    (x4 : Vec Ideal S128x8192 .i32) (x5 : Vec Ideal S1x8192 .f32) (x6 : Vec Ideal S1x8192 .f32) (y : S128x1.Idx) :
    out0_9 x0 x1 x2 x3 x4 x5 x6 y = ∑ cc : Fin 8192, tileSim x2 x3 x6 ⟨(y 0).val, idx2_lt0 y⟩ cc * tileWt x4 ⟨(y 0).val, idx2_lt0 y⟩ cc := by
  obtain ⟨p, q, rfl⟩ : ∃ (p : Fin 128) (q : Fin 1), y = ix2 p q := ⟨y 0, y 1, eq_ix2 y⟩
  unfold out0_9
  rw [View.canon_unit_zero hz]
  simp only [View.ld_unit_zero (S := S128x64) hz, View.ld_unit_zero (S := S1x8192) hz, View.ld_unit_zero (S := S64x8192) hz,
    View.ld_unit_zero (S := S128x8192) hz]
  exact pay3_apply x4 x2 x6 x3 p q

/-- The second direction's row sums. -/
theorem out10_apply (x0 : Vec Ideal S128x64 .f32) (x1 : Vec Ideal S64x8192 .bf16) (x2 : Vec Ideal S128x64 .f32) (x3 : Vec Ideal S64x8192 .bf16)
    (x4 : Vec Ideal S128x8192 .i32) (x5 : Vec Ideal S1x8192 .f32) (x6 : Vec Ideal S1x8192 .f32) (y : S128x1.Idx) :
    out0_10 x0 x1 x2 x3 x4 x5 x6 y = ∑ cc : Fin 8192, tileSim x2 x3 x6 ⟨(y 0).val, idx2_lt0 y⟩ cc := by
  obtain ⟨p, q, rfl⟩ : ∃ (p : Fin 128) (q : Fin 1), y = ix2 p q := ⟨y 0, y 1, eq_ix2 y⟩
  unfold out0_10
  rw [View.canon_unit_zero hz]
  simp only [View.ld_unit_zero (S := S128x64) hz, View.ld_unit_zero (S := S1x8192) hz, View.ld_unit_zero (S := S64x8192) hz]
  exact pay2_apply x2 x6 x3 p q

end Cert.KernelLoss

end
-- ==== Proof.OutArrays.lean ====
/-
  The kernel's four [8192, 1] result arrays after the region, each as one function of the argument arrays: row `r` of
  each holds the sum (or the mask-weighted sum) over `c` of the similarity matrix's row `r` in one of the two directions.
  Point `t` writes back rows `128 t … 128 t + 127` of that function, and the 64 points' blocks cover every row.
-/
import proofs.«155630_j80711025426432_2_alg».proof.Proof.Blocks

noncomputable section

namespace Cert.KernelLoss

open Idealize.ShloMosaic Idealize.ShloMosaic.TcCoe Idealize.SL.Sem Idealize.ShloMosaic.ValueIdx
open Idealize.ShloMosaic.Pipeline (Dat)
open Cert.KernelIdeal Cert.KernelIdeal.Gen Cert.Loss

variable (m : (ℓ : Loc nD τ sig) → Buf (Elt Ideal) ℓ)

/-- A function of the row as an [8192, 1] array. -/
def colOf (g : Fin 8192 → EReal) : S8192x1.Idx → EReal := fun i => g ⟨(i 0).val, idx2_lt0 i⟩

/-- The rows' plain and mask-weighted similarity sums, in the two directions. -/
def sumFst (c : Dev nD) (r : Fin 8192) : EReal := ∑ cc : Fin 8192, sim (emb0 m c) (emb1 m c) r cc
def wsumFst (c : Dev nD) (r : Fin 8192) : EReal := ∑ cc : Fin 8192, sim (emb0 m c) (emb1 m c) r cc * wt (mask m c) r cc
def sumSnd (c : Dev nD) (r : Fin 8192) : EReal := ∑ cc : Fin 8192, sim (emb1 m c) (emb0 m c) r cc
def wsumSnd (c : Dev nD) (r : Fin 8192) : EReal := ∑ cc : Fin 8192, sim (emb1 m c) (emb0 m c) r cc * wt (mask m c) r cc

/-- The output windows' block indices over the grid: each moves with the point along the rows. -/
theorem idx_out : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## Window 7: the first direction's mask-weighted sums -/

theorem flushed7_eq (c : Dev nD) (t : Fin cfg0.N) :
    (dats m 0 c).flushed 7 t = ((cfg0.win 7).blk t).view.read (Elt Ideal) (colOf (wsumFst m c)) := by
  show (cfg0.win 7).cut (grid0.coords t) ((dats m 0 c).after 7 t) = _
  rw [after0_7]
  funext y
  show out0_7 (iblk m c 0 t) (iblk m c 1 t) (iblk m c 2 t) (iblk m c 3 t) (iblk m c 4 t) (iblk m c 5 t) (iblk m c 6 t) y
    = colOf (wsumFst m c) (((cfg0.win 7).blk t).view.emb y)
  refine (out7_apply (iblk m c 0 t) (iblk m c 1 t) (iblk m c 2 t) (iblk m c 3 t) (iblk m c 4 t) (iblk m c 5 t) (iblk m c 6 t) y).trans ?_
  refine (Finset.sum_congr rfl fun cc _ => by
    rw [tileSim_fst m c t ⟨(y 0).val, idx2_lt0 (n0 := 128) (n1 := 1) y⟩ cc, tileWt_eq m c t ⟨(y 0).val, idx2_lt0 (n0 := 128) (n1 := 1) y⟩ cc]).trans ?_
  refine congrArg (wsumFst m c) (Fin.ext ?_)
  show 128 * t.val + (y 0).val = win0_7.index t (0 : Fin 2) * 128 + 1 * (y 0).val
  rw [(idx_out t).1]; omega

theorem mem_blk7 (t : Fin cfg0.N) (i : S8192x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v8_0).slice (win0_7.rect t)).set ↔ _
  rw [View.set_slice_whole, Rect.mem_set_unit]
  exact Iff.rfl

theorem cover7 (i : S8192x1.Idx) : ∃ t : Fin cfg0.N, (cfg0.win 7).flush t = true ∧ i ∈ ((cfg0.win 7).blk t).view.set := by
  have hN : cfg0.N = 64 := N_0
  have hi0 : (i 0).val < 8192 := (i 0).isLt
  have hi1 : (i 1).val < 1 := (i 1).isLt
  have hlt : (i 0).val / 128 < cfg0.N := by omega
  refine ⟨⟨(i 0).val / 128, hlt⟩, flush0_7 _, ?_⟩
  rw [mem_blk7]
  have e0 := (idx_out ⟨(i 0).val / 128, hlt⟩).1
  have e1 := (idx_out ⟨(i 0).val / 128, hlt⟩).2.1
  intro a
  match a with
  | ⟨0, _⟩ =>
    show win0_7.index ⟨(i 0).val / 128, hlt⟩ (0 : Fin 2) * 128 ≤ (i 0).val ∧ (i 0).val < win0_7.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, hlt⟩ (1 : Fin 2) * 1 ≤ (i 1).val ∧ (i 1).val < win0_7.index ⟨(i 0).val / 128, hlt⟩ (1 : Fin 2) * 1 + 1
    rw [e1]; omega

theorem final7 (c : Dev nD) : (dats m 0 c).arrAt 7 cfg0.N = colOf (wsumFst m c) :=
  (dats m 0 c).arrAt_eq_of_cover 7 (colOf (wsumFst m c)) (fun t _ => flushed7_eq m c t) cover7

/-! ## Window 8: the first direction's plain sums -/

theorem flushed8_eq (c : Dev nD) (t : Fin cfg0.N) :
    (dats m 0 c).flushed 8 t = ((cfg0.win 8).blk t).view.read (Elt Ideal) (colOf (sumFst m c)) := by
  show (cfg0.win 8).cut (grid0.coords t) ((dats m 0 c).after 8 t) = _
  rw [after0_8]
  funext y
  show out0_8 (iblk m c 0 t) (iblk m c 1 t) (iblk m c 2 t) (iblk m c 3 t) (iblk m c 4 t) (iblk m c 5 t) (iblk m c 6 t) y
    = colOf (sumFst m c) (((cfg0.win 8).blk t).view.emb y)
  refine (out8_apply (iblk m c 0 t) (iblk m c 1 t) (iblk m c 2 t) (iblk m c 3 t) (iblk m c 4 t) (iblk m c 5 t) (iblk m c 6 t) y).trans ?_
  refine (Finset.sum_congr rfl fun cc _ => tileSim_fst m c t ⟨(y 0).val, idx2_lt0 (n0 := 128) (n1 := 1) y⟩ cc).trans ?_
  refine congrArg (sumFst m c) (Fin.ext ?_)
  show 128 * t.val + (y 0).val = win0_8.index t (0 : Fin 2) * 128 + 1 * (y 0).val
  rw [(idx_out t).2.2.1]; omega

theorem mem_blk8 (t : Fin cfg0.N) (i : S8192x1.Idx) :
    i ∈ ((cfg0.win 8).blk t).view.set ↔ ∀ a : Fin 2, win0_8.index t a * S128x1.size a ≤ (i a).val ∧ (i a).val < win0_8.index t a * S128x1.size a + S128x1.size a := by
  show i ∈ ((View.whole main_v8_1).slice (win0_8.rect t)).set ↔ _
  rw [View.set_slice_whole, Rect.mem_set_unit]
  exact Iff.rfl

theorem cover8 (i : S8192x1.Idx) : ∃ t : Fin cfg0.N, (cfg0.win 8).flush t = true ∧ i ∈ ((cfg0.win 8).blk t).view.set := by
  have hN : cfg0.N = 64 := N_0
  have hi0 : (i 0).val < 8192 := (i 0).isLt
  have hi1 : (i 1).val < 1 := (i 1).isLt
  have hlt : (i 0).val / 128 < cfg0.N := by omega
  refine ⟨⟨(i 0).val / 128, hlt⟩, flush0_8 _, ?_⟩
  rw [mem_blk8]
  have e0 := (idx_out ⟨(i 0).val / 128, hlt⟩).2.2.1
  have e1 := (idx_out ⟨(i 0).val / 128, hlt⟩).2.2.2.1
  intro a
  match a with
  | ⟨0, _⟩ =>
    show win0_8.index ⟨(i 0).val / 128, hlt⟩ (0 : Fin 2) * 128 ≤ (i 0).val ∧ (i 0).val < win0_8.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, hlt⟩ (1 : Fin 2) * 1 ≤ (i 1).val ∧ (i 1).val < win0_8.index ⟨(i 0).val / 128, hlt⟩ (1 : Fin 2) * 1 + 1
    rw [e1]; omega

theorem final8 (c : Dev nD) : (dats m 0 c).arrAt 8 cfg0.N = colOf (sumFst m c) :=
  (dats m 0 c).arrAt_eq_of_cover 8 (colOf (sumFst m c)) (fun t _ => flushed8_eq m c t) cover8

/-! ## Window 9: the second direction's mask-weighted sums -/

theorem flushed9_eq (c : Dev nD) (t : Fin cfg0.N) :
    (dats m 0 c).flushed 9 t = ((cfg0.win 9).blk t).view.read (Elt Ideal) (colOf (wsumSnd m c)) := by
  show (cfg0.win 9).cut (grid0.coords t) ((dats m 0 c).after 9 t) = _
  rw [after0_9]
  funext y
  show out0_9 (iblk m c 0 t) (iblk m c 1 t) (iblk m c 2 t) (iblk m c 3 t) (iblk m c 4 t) (iblk m c 5 t) (iblk m c 6 t) y
    = colOf (wsumSnd m c) (((cfg0.win 9).blk t).view.emb y)
  refine (out9_apply (iblk m c 0 t) (iblk m c 1 t) (iblk m c 2 t) (iblk m c 3 t) (iblk m c 4 t) (iblk m c 5 t) (iblk m c 6 t) y).trans ?_
  refine (Finset.sum_congr rfl fun cc _ => by
    rw [tileSim_snd m c t ⟨(y 0).val, idx2_lt0 (n0 := 128) (n1 := 1) y⟩ cc, tileWt_eq m c t ⟨(y 0).val, idx2_lt0 (n0 := 128) (n1 := 1) y⟩ cc]).trans ?_
  refine congrArg (wsumSnd m c) (Fin.ext ?_)
  show 128 * t.val + (y 0).val = win0_9.index t (0 : Fin 2) * 128 + 1 * (y 0).val
  rw [(idx_out t).2.2.2.2.1]; omega

theorem mem_blk9 (t : Fin cfg0.N) (i : S8192x1.Idx) :
    i ∈ ((cfg0.win 9).blk t).view.set ↔ ∀ a : Fin 2, win0_9.index t a * S128x1.size a ≤ (i a).val ∧ (i a).val < win0_9.index t a * S128x1.size a + S128x1.size a := by
  show i ∈ ((View.whole main_v8_2).slice (win0_9.rect t)).set ↔ _
  rw [View.set_slice_whole, Rect.mem_set_unit]
  exact Iff.rfl

theorem cover9 (i : S8192x1.Idx) : ∃ t : Fin cfg0.N, (cfg0.win 9).flush t = true ∧ i ∈ ((cfg0.win 9).blk t).view.set := by
  have hN : cfg0.N = 64 := N_0
  have hi0 : (i 0).val < 8192 := (i 0).isLt
  have hi1 : (i 1).val < 1 := (i 1).isLt
  have hlt : (i 0).val / 128 < cfg0.N := by omega
  refine ⟨⟨(i 0).val / 128, hlt⟩, flush0_9 _, ?_⟩
  rw [mem_blk9]
  have e0 := (idx_out ⟨(i 0).val / 128, hlt⟩).2.2.2.2.1
  have e1 := (idx_out ⟨(i 0).val / 128, hlt⟩).2.2.2.2.2.1
  intro a
  match a with
  | ⟨0, _⟩ =>
    show win0_9.index ⟨(i 0).val / 128, hlt⟩ (0 : Fin 2) * 128 ≤ (i 0).val ∧ (i 0).val < win0_9.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, hlt⟩ (1 : Fin 2) * 1 ≤ (i 1).val ∧ (i 1).val < win0_9.index ⟨(i 0).val / 128, hlt⟩ (1 : Fin 2) * 1 + 1
    rw [e1]; omega

theorem final9 (c : Dev nD) : (dats m 0 c).arrAt 9 cfg0.N = colOf (wsumSnd m c) :=
  (dats m 0 c).arrAt_eq_of_cover 9 (colOf (wsumSnd m c)) (fun t _ => flushed9_eq m c t) cover9

/-! ## Window 10: the second direction's plain sums -/

theorem flushed10_eq (c : Dev nD) (t : Fin cfg0.N) :
    (dats m 0 c).flushed 10 t = ((cfg0.win 10).blk t).view.read (Elt Ideal) (colOf (sumSnd m c)) := by
  show (cfg0.win 10).cut (grid0.coords t) ((dats m 0 c).after 10 t) = _
  rw [after0_10]
  funext y
  show out0_10 (iblk m c 0 t) (iblk m c 1 t) (iblk m c 2 t) (iblk m c 3 t) (iblk m c 4 t) (iblk m c 5 t) (iblk m c 6 t) y
    = colOf (sumSnd m c) (((cfg0.win 10).blk t).view.emb y)
  refine (out10_apply (iblk m c 0 t) (iblk m c 1 t) (iblk m c 2 t) (iblk m c 3 t) (iblk m c 4 t) (iblk m c 5 t) (iblk m c 6 t) y).trans ?_
  refine (Finset.sum_congr rfl fun cc _ => tileSim_snd m c t ⟨(y 0).val, idx2_lt0 (n0 := 128) (n1 := 1) y⟩ cc).trans ?_
  refine congrArg (sumSnd m c) (Fin.ext ?_)
  show 128 * t.val + (y 0).val = win0_10.index t (0 : Fin 2) * 128 + 1 * (y 0).val
  rw [(idx_out t).2.2.2.2.2.2.1]; omega

theorem mem_blk10 (t : Fin cfg0.N) (i : S8192x1.Idx) :
    i ∈ ((cfg0.win 10).blk t).view.set ↔ ∀ a : Fin 2, win0_10.index t a * S128x1.size a ≤ (i a).val ∧ (i a).val < win0_10.index t a * S128x1.size a + S128x1.size a := by
  show i ∈ ((View.whole main_v8_3).slice (win0_10.rect t)).set ↔ _
  rw [View.set_slice_whole, Rect.mem_set_unit]
  exact Iff.rfl

theorem cover10 (i : S8192x1.Idx) : ∃ t : Fin cfg0.N, (cfg0.win 10).flush t = true ∧ i ∈ ((cfg0.win 10).blk t).view.set := by
  have hN : cfg0.N = 64 := N_0
  have hi0 : (i 0).val < 8192 := (i 0).isLt
  have hi1 : (i 1).val < 1 := (i 1).isLt
  have hlt : (i 0).val / 128 < cfg0.N := by omega
  refine ⟨⟨(i 0).val / 128, hlt⟩, flush0_10 _, ?_⟩
  rw [mem_blk10]
  have e0 := (idx_out ⟨(i 0).val / 128, hlt⟩).2.2.2.2.2.2.1
  have e1 := (idx_out ⟨(i 0).val / 128, hlt⟩).2.2.2.2.2.2.2
  intro a
  match a with
  | ⟨0, _⟩ =>
    show win0_10.index ⟨(i 0).val / 128, hlt⟩ (0 : Fin 2) * 128 ≤ (i 0).val ∧ (i 0).val < win0_10.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, hlt⟩ (1 : Fin 2) * 1 ≤ (i 1).val ∧ (i 1).val < win0_10.index ⟨(i 0).val / 128, hlt⟩ (1 : Fin 2) * 1 + 1
    rw [e1]; omega

theorem final10 (c : Dev nD) : (dats m 0 c).arrAt 10 cfg0.N = colOf (sumSnd m c) :=
  (dats m 0 c).arrAt_eq_of_cover 10 (colOf (sumSnd m c)) (fun t _ => flushed10_eq m c t) cover10

end Cert.KernelLoss

end
-- ==== Proof.KernelValue.lean ====
/-
  The kernel program's result. After the region the host divides each direction's mask-weighted row sums by the row sums
  plus ε, takes logarithms, averages over the 8192 rows, negates, and adds the two halves: with the four result arrays
  read as functions of the rows (`final7` … `final10`) this is the loss.
-/
import proofs.«155630_j80711025426432_2_alg».proof.Proof.OutArrays

noncomputable section

namespace Cert.KernelLoss

open Idealize.ShloMosaic Idealize.ShloMosaic.TcCoe Idealize.SL.Sem Idealize.ShloMosaic.ValueIdx
open Idealize.ShloMosaic.Pipeline (Dat)
open Cert.KernelIdeal Cert.KernelIdeal.Gen Cert.Loss

variable (m : (ℓ : Loc nD τ sig) → Buf (Elt Ideal) ℓ) (ρ : Dev nD → PrngReg)

/-! ## The four arrays as the host operations after the region find them -/

theorem arr7 (c : Dev nD) :
    Pipeline.withArrays (cfgs 0).spec c (V0 m c) (fun w => (dats m 0 c).arrAt w (cfgs 0).N) (Proc.tc.devRef main_v8_0)
      = colOf (wsumFst m c) :=
  (Pipeline.withArrays_arr spec0 winFacts0.arr_inj c _ _ 7).trans (final7 m c)

theorem arr8 (c : Dev nD) :
    Pipeline.withArrays (cfgs 0).spec c (V0 m c) (fun w => (dats m 0 c).arrAt w (cfgs 0).N) (Proc.tc.devRef main_v8_1)
      = colOf (sumFst m c) :=
  (Pipeline.withArrays_arr spec0 winFacts0.arr_inj c _ _ 8).trans (final8 m c)

theorem arr9 (c : Dev nD) :
    Pipeline.withArrays (cfgs 0).spec c (V0 m c) (fun w => (dats m 0 c).arrAt w (cfgs 0).N) (Proc.tc.devRef main_v8_2)
      = colOf (wsumSnd m c) :=
  (Pipeline.withArrays_arr spec0 winFacts0.arr_inj c _ _ 9).trans (final9 m c)

theorem arr10 (c : Dev nD) :
    Pipeline.withArrays (cfgs 0).spec c (V0 m c) (fun w => (dats m 0 c).arrAt w (cfgs 0).N) (Proc.tc.devRef main_v8_3)
      = colOf (sumSnd m c) :=
  (Pipeline.withArrays_arr spec0 winFacts0.arr_inj c _ _ 10).trans (final10 m c)

/-! ## The mean of logarithms -/

/-- The host's sum over both axes of the logarithms of a column of quotients `g r / (h r + ε)` is the sum over the rows:
    the column's second axis has one coordinate, and the initial value is zero. -/
theorem logSum_col (g h : Fin 8192 → EReal) (i : S_.Idx) :
    Host.reduceAdd (F := Ideal)
        (Host.log (Host.divf (colOf g) (addf (colOf h) (broadcastInDim S8192x1 ![] bcast_S_S8192x1 (constant (F := Ideal) S_ .f32 0x322BCC77#32)))))
        (constant (F := Ideal) S_ .f32 0x00000000#32) reducesTo_S8192x1_S_d0_1 h_S_ i
      = ∑ r : Fin 8192, Ideal.log (Ideal.div (g r) (h r + eps)) := by
  simp only [Host.reduceAdd, Ideal.hostReduceAdd_def]
  rw [Ideal.hostReduceAdd_total reducesTo_S8192x1_S_d0_1 (fun b => b.elim0), sum_idx2]
  simp only [Fin.sum_univ_one]
  show Ideal.ofBits .f32 0x00000000#32 + ∑ a : Fin 8192, Ideal.log (Ideal.div (g a) (h a + eps)) = _
  rw [Ideal.ofBits_zero_f32, zero_add]

/-! ## The result -/

set_option maxHeartbeats 1600000 in
/-- The result buffer after the host operations that follow the region holds the loss. -/
theorem tail_result (c : Dev nD) :
    Pipeline.afterTail₀ cfgs (dats m) 0 (V0 m) [hostOps1] c main_v25 = (fun _ => loss (emb0 m c) (emb1 m c) (mask m c)) := by
  unfold Pipeline.afterTail₀
  simp only [List.flatten_cons, List.flatten_nil, List.append_nil]
  after_results
  rw [arr7 m c, arr8 m c, arr9 m c, arr10 m c]
  funext i
  show Ideal.ofBits .f32 0x3F000000#32 * -(Ideal.div (Host.reduceAdd (F := Ideal) _ _ reducesTo_S8192x1_S_d0_1 h_S_ i) (Ideal.ofBits .f32 0x46000000#32))
      + Ideal.ofBits .f32 0x3F000000#32 * -(Ideal.div (Host.reduceAdd (F := Ideal) _ _ reducesTo_S8192x1_S_d0_1 h_S_ i) (Ideal.ofBits .f32 0x46000000#32)) = _
  rw [logSum_col, logSum_col]
  rfl

/-- The result buffer is no array of the pipeline. -/
theorem result_mem : main_v25 ∈ Pipeline.restRefs sig spec0 :=
  Pipeline.mem_restRefs_of main_v25 rfl (fun w => by fin_cases w <;> decide)

/-- The kernel program's run, read: the result at the loss of the argument arrays, the arguments unchanged. -/
theorem run : θ_run defs (onTc (τ := τ) (main (F := Ideal))) ⟨m, fun _ => 0, ρ⟩ fun r => ∀ c : Dev nD,
      r.2.mem ((c.tc : Thread nD τ).loc main_v25) = (fun _ => loss (emb0 m c) (emb1 m c) (mask m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v25 result_mem).trans (tail_result m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 4).trans (((dats m 0 c).arrAt_in 4 rfl _).trans ((A_eq m c 4).trans (V_main_arg2 m c)))⟩) (run_main m ρ)

end Cert.KernelLoss

end
-- ==== Proof.lean ====
/-
  The contrastive loss of two embedding arrays under an integer mask, computed by a fused kernel over 64 row tiles and
  by a plain array program, is one extended real.

  Both programs form the similarity matrix `exp ((⟨a_r, b_c⟩ / (‖a_r‖ ‖b_c‖)) / τ)` (the kernel from each row tile, the
  transposed copy of the other array and the other array's norms; a change of float format is the identity, and a matrix
  product into a zero accumulator is the host's dot product), and in both directions the mean over the rows of
  `log` of the mask-weighted row sum normalised by the row sum plus ε. They differ in two ways only. The kernel divides
  the weighted row sum by the normaliser; the reference divides every similarity first and then weights and sums: equal
  because the similarities are exponentials, hence nonnegative, the weights are integers and ε is a positive real — if
  the normaliser is infinite both sides vanish, otherwise everything is a real and division distributes over the sum
  (`Cert.NormalizedSum.div_sum_mul`). And the kernel computes the second direction from the second array's tiles,
  where the reference transposes the first direction's matrix: equal because products commute (`Cert.Loss.sim_comm`).
  Neither step needs the inputs to be finite.

  The kernel's result is read off its run (`Cert.KernelLoss.run`): the four per-row arrays the region leaves, then the
  host operations after it. The reference's is read off its run one operation at a time (`Cert.RefLoss.result`).
-/
import proofs.«155630_j80711025426432_2_alg».proof.Defs
import proofs.«155630_j80711025426432_2_alg».proof.Proof.Gen.Kernel
import proofs.«155630_j80711025426432_2_alg».proof.Proof.Gen.Kernel.Skeleton
import proofs.«155630_j80711025426432_2_alg».proof.Proof.Gen.Kernel.Launch
import proofs.«155630_j80711025426432_2_alg».proof.Proof.Gen.Kernel.Points
import proofs.«155630_j80711025426432_2_alg».proof.Proof.Gen.Kernel.Frame
import proofs.«155630_j80711025426432_2_alg».proof.Proof.Gen.KernelIdeal
import proofs.«155630_j80711025426432_2_alg».proof.Proof.Gen.KernelIdeal.Skeleton
import proofs.«155630_j80711025426432_2_alg».proof.Proof.Gen.KernelIdeal.Launch
import proofs.«155630_j80711025426432_2_alg».proof.Proof.Gen.KernelIdeal.Points
import proofs.«155630_j80711025426432_2_alg».proof.Proof.Gen.KernelIdeal.Frame
import proofs.«155630_j80711025426432_2_alg».proof.Proof.Gen.ReferenceIdeal
import proofs.«155630_j80711025426432_2_alg».proof.Proof.Gen.Pre_finite_inputs
import proofs.«155630_j80711025426432_2_alg».proof.Proof.Gen.ReferenceIdeal.Run
import proofs.«155630_j80711025426432_2_alg».proof.Proof.Gen.ReferenceIdeal.Read
import proofs.«155630_j80711025426432_2_alg».proof.Proof.LossLaw
import proofs.«155630_j80711025426432_2_alg».proof.Proof.RefValue
import proofs.«155630_j80711025426432_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of the argument arrays in their result. -/
theorem algebraic : Cert.algebraic_KernelIdeal_ReferenceIdeal := by
  intro m ρ m' ρ' _ hagree
  refine ⟨fun c => (fun _ => Cert.Loss.loss (Cert.KernelLoss.emb0 m c) (Cert.KernelLoss.emb1 m c) (Cert.KernelLoss.mask m c)),
    Cert.KernelLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]
  funext i
  exact (Cert.RefLoss.result _ _ _ i).trans (Cert.Loss.refLoss_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
